-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8x2048x128 .f32) (main_arg1 : FVec F S8x2048x2048 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1024x1 : Shape := ⟨3, ![1, 1024, 1]⟩
abbrev S1x1024x2048 : Shape := ⟨3, ![1, 1024, 2048]⟩
abbrev S1x2048x128 : Shape := ⟨3, ![1, 2048, 128]⟩
abbrev S1x1024x128 : Shape := ⟨3, ![1, 1024, 128]⟩
abbrev S1024x1 : Shape := ⟨2, ![1024, 1]⟩
abbrev S1024x2048 : Shape := ⟨2, ![1024, 2048]⟩
abbrev S2048x128 : Shape := ⟨2, ![2048, 128]⟩
abbrev S1024 : Shape := ⟨1, ![1024]⟩
abbrev S1024x128 : Shape := ⟨2, ![1024, 128]⟩

abbrev nBuf : Space → Nat
  | .hbm => 37
  | .vmem => 8
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S_, .i32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S8x2048x128, .f32⟩
  | .hbm, ⟨10, _⟩ => ⟨S8x2048x128, .f32⟩
  | .hbm, ⟨11, _⟩ => ⟨S8x2048x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S_, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x128, .f32⟩
  | .local _ .vmem, ⟨0, _⟩ => ⟨S1x1024x1, .f32⟩
  | .local _ .vmem, ⟨1, _⟩ => ⟨S1x1024x1, .f32⟩
  | .local _ .vmem, ⟨2, _⟩ => ⟨S1x1024x2048, .f32⟩
  | .local _ .vmem, ⟨3, _⟩ => ⟨S1x1024x2048, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_cst_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_cst_2 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_cst_3 : Ref sig .tc := ⟨.hbm, 20, rfl⟩
abbrev main_call0_v13 : Ref sig .tc := ⟨.hbm, 21, rfl⟩
abbrev main_call0_cst_4 : Ref sig .tc := ⟨.hbm, 22, rfl⟩
abbrev main_call0_call0_v0 : Ref sig .tc := ⟨.hbm, 23, rfl⟩
abbrev main_call0_call0_v1 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_cst_0 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8x2048x128_S8x2048_d2 : S8x2048x128.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x128_0_1_2 : S8x2048x1.BroadcastsInDim S8x2048x128 (![0, 1, 2] : Fin 3 → Fin S8x2048x128.rank)
  reducesTo_S8x2048x1_S_d0_1_2 : S8x2048x1.ReducesTo [0, 1, 2] S_
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  broadcasts_S1024x1_S1024x2048 : S1024x1.Broadcasts S1024x2048
  reduces_S1024x2048_S1024 : S1024x2048.Reduces [1] S1024
  shapeCasts_S1024_S1024x1 : S1024.ShapeCasts S1024x1
  broadcasts_S1024x1_S1024x128 : S1024x1.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S8x2048x1.size a
  hwx0_0 : ∀ i : grid0.Coords, EltTy.bits .f32 = 32 ∨ (Rect.block (s := S8x2048x1) S1x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x2048x2048.size a
  hwx0_1 : ∀ i : grid0.Coords, EltTy.bits .f32 = 32 ∨ (Rect.block (s := S8x2048x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S8x2048x128.size a
  hwx0_3 : ∀ i : grid0.Coords, EltTy.bits .f32 = 32 ∨ (Rect.block (s := S8x2048x128) S1x1024x128.size (cc0_transform_3 i) (hinb0_3 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v7) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S_, .i32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S8x2048x128, .f32⟩
  | .hbm, ⟨10, _⟩ => ⟨S8x2048x128, .f32⟩
  | .hbm, ⟨11, _⟩ => ⟨S8x2048x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S_, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S8x2048x2048, .f32⟩
  | .hbm, ⟨51, _⟩ => ⟨S8x2048x2048, .f32⟩
  | .hbm, ⟨52, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_cst_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_cst_2 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_cst_3 : Ref sig .tc := ⟨.hbm, 20, rfl⟩
abbrev main_call0_v13 : Ref sig .tc := ⟨.hbm, 21, rfl⟩
abbrev main_call0_cst_4 : Ref sig .tc := ⟨.hbm, 22, rfl⟩
abbrev main_call0_call0_v0 : Ref sig .tc := ⟨.hbm, 23, rfl⟩
abbrev main_call0_call0_v1 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_cst_0 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_cst_3 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_4 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  reducesTo_S8x2048x128_S8x2048_d2 : S8x2048x128.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x128_0_1_2 : S8x2048x1.BroadcastsInDim S8x2048x128 (![0, 1, 2] : Fin 3 → Fin S8x2048x128.rank)
  reducesTo_S8x2048x1_S_d0_1_2 : S8x2048x1.ReducesTo [0, 1, 2] S_
  bcast_S8x2048x1_S8x2048x2048_0_1_2 : S8x2048x1.BroadcastsInDim S8x2048x2048 (![0, 1, 2] : Fin 3 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  dot_S8x2048x2048_S8x2048x128_S8x2048x128_2_1_1_2_0_0_wf : DotDims.WF S8x2048x2048 S8x2048x128 S8x2048x128 [2] [1] [1] [2] [0] [0]

variable [Facts₀]

def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Terms.lean ====
/-
  The two programs' common vocabulary, stated once over literal shapes and importing neither program.

  Both programs start with the same per-row scale of the noise: for each batch `b` and row `q` the unbiased variance
  of the 128 features of that row, `a = 1 / (var + ε)`, and `stab = a / max a` with the maximum over ALL rows of all
  batches.  `stab` is that chain of host operations as one function of the feature array.  The reference then scales
  the noise row by `stab`, takes the softmax of each row over its 2048 keys and contracts it with the features of the
  same batch: `attend`.  The whole reference is `refOut = attend (stab x) x n`.
-/
import Idealize.ShloMosaic.PureOps
import Idealize.ShloMosaic.PureOps.Ideal

noncomputable section

namespace Cert.Attn

open Idealize.ShloMosaic

/-- features and result: batch, row (or key), feature -/
abbrev SF : Shape := ⟨3, ![8, 2048, 128]⟩
/-- noise: batch, row, key -/
abbrev SN : Shape := ⟨3, ![8, 2048, 2048]⟩
/-- one entry per (batch, row) -/
abbrev SR : Shape := ⟨2, ![8, 2048]⟩
/-- one entry per (batch, row), kept as a column -/
abbrev SC : Shape := ⟨3, ![8, 2048, 1]⟩
/-- a scalar -/
abbrev S0 : Shape := ⟨0, ![]⟩

theorem red_F : SF.ReducesTo [2] SR := by decide
theorem red_N : SN.ReducesTo [2] SR := by decide
theorem red_C : SC.ReducesTo [0, 1, 2] S0 := by decide
theorem h0 : 0 < S0.numel := by decide
theorem bc_R_C : SR.BroadcastsInDim SC (![0, 1] : Fin 2 → Fin SC.rank) := by decide
theorem bc_0_C : S0.BroadcastsInDim SC (![] : Fin 0 → Fin SC.rank) := by decide
theorem bc_0_R : S0.BroadcastsInDim SR (![] : Fin 0 → Fin SR.rank) := by decide
theorem bc_C_F : SC.BroadcastsInDim SF (![0, 1, 2] : Fin 3 → Fin SF.rank) := by decide
theorem bc_C_N : SC.BroadcastsInDim SN (![0, 1, 2] : Fin 3 → Fin SN.rank) := by decide
theorem dotB_wf : DotDims.WF SN SF SF [2] [1] [1] [2] [0] [0] := by decide

/-- probabilities [b, i, j] against features [b, j, f]: batch axis 0 of both, the keys contracted -/
def dotB : DotDims SN SF SF where
  lhsContracting := [2]
  rhsContracting := [1]
  lhsNonContracting := [1]
  rhsNonContracting := [2]
  lhsBatch := [0]
  rhsBatch := [0]
  wf := dotB_wf

variable {F : FTy → Type} [FloatOps F]

/-- Each row's mean over its 128 features, kept as a column: the row sum (from `0`) over `128`. -/
def rowMean (x : FVec F SF .f32) : FVec F SC .f32 :=
  Host.divf (broadcastInDim SC ![0, 1] bc_R_C (Host.reduceAdd x (constant S0 .f32 0x00000000#32) red_F h0))
    (broadcastInDim SC ![] bc_0_C (constant S0 .f32 0x43000000#32))

/-- Each feature's deviation from its row's mean. -/
def rowDev (x : FVec F SF .f32) : FVec F SF .f32 := subf x (broadcastInDim SF ![0, 1, 2] bc_C_F (rowMean x))

/-- The degrees of freedom `128 - 1`, the `1` an integer constant converted. -/
def dof : FVec F S0 .f32 := subf (constant S0 .f32 0x43000000#32) (sitofp .f32 (constantI S0 32 1#32))

/-- The unbiased variance of each row's 128 features, kept as a column: the sum of squared deviations over
    `128 - 1`; the guard `128 - 1 > 0` selects it over the filler. -/
def rowVar (x : FVec F SF .f32) : FVec F SC .f32 :=
  select (broadcastInDim SC ![] bc_0_C (cmpf .ogt (dof (F := F)) (constant S0 .f32 0x00000000#32)))
    (Host.divf
      (broadcastInDim SC ![0, 1] bc_R_C
        (Host.reduceAdd (mulf (rowDev x) (rowDev x)) (constant S0 .f32 0x00000000#32) red_F h0))
      (broadcastInDim SC ![] bc_0_C (dof (F := F))))
    (broadcastInDim SC ![] bc_0_C (id (constant S0 .f32 0x7FC00000#32)))

/-- `a = 1 / (var + ε)` per row. -/
def invVar (x : FVec F SF .f32) : FVec F SC .f32 :=
  Host.divf (broadcastInDim SC ![] bc_0_C (constant S0 .f32 0x3F800000#32))
    (addf (rowVar x) (broadcastInDim SC ![] bc_0_C (constant S0 .f32 0x358637BD#32)))

/-- `stab = a / max a`, the maximum over every row of every batch (from `-∞`). -/
def stab (x : FVec F SF .f32) : FVec F SC .f32 :=
  Host.divf (invVar x) (broadcastInDim SC ![] bc_0_C
    (Host.reduce FloatOps.maximumf (invVar x) (constant S0 .f32 0xFF800000#32) red_C h0))

/-- The noise row scaled by its row's factor. -/
def scaled (st : FVec F SC .f32) (n : FVec F SN .f32) : FVec F SN .f32 :=
  mulf n (broadcastInDim SN ![0, 1, 2] bc_C_N st)

/-- Each row's maximum over its keys (from `-∞`, and once more against `-∞`). -/
def rowMax (s : FVec F SN .f32) : FVec F SR .f32 :=
  maximumf (broadcastInDim SR ![] bc_0_R (constant S0 .f32 0xFF800000#32))
    (Host.reduce FloatOps.maximumf s (constant S0 .f32 0xFF800000#32) red_N h0)

/-- A per-row quantity spread over the row's keys. -/
def overKeys (r : FVec F SR .f32) : FVec F SN .f32 :=
  broadcastInDim SN ![0, 1, 2] bc_C_N (broadcastInDim SC ![0, 1] bc_R_C r)

/-- The softmax numerators `exp (s - max)`. -/
def numer (s : FVec F SN .f32) : FVec F SN .f32 := Host.exp (subf s (overKeys (rowMax s)))

/-- The reference after the scale: softmax of each scaled row, contracted with the batch's features. -/
def attend (st : FVec F SC .f32) (x : FVec F SF .f32) (n : FVec F SN .f32) : FVec F SF .f32 :=
  let p := numer (scaled st n)
  Host.dotGeneral dotB none
    (Host.divf p (overKeys (Host.reduceAdd p (constant S0 .f32 0x00000000#32) red_N h0))) x

/-- The reference as one function of the two argument arrays. -/
def refOut (x : FVec F SF .f32) (n : FVec F SN .f32) : FVec F SF .f32 := attend (stab x) x n

end Cert.Attn

end
-- ==== Proof.RefRun.lean ====
/-
  The reference's run, read back.  Its @main is a straight line once the two outlined functions are unfolded at their
  calls: the constant `1`, the 23 operations of the variance (the last three the guard's select), the 10 operations
  from the variance to the per-row factor, and the 14 of the scaled softmax and the contraction with the features.
  Every weakly fair execution runs them in order, so the result buffer ends at their composed term of the two
  argument arrays — which is `Cert.Attn.refOut` by unfolding — and the arguments are never written.
-/
import proofs.«178636_j39771397161405_2_alg».proof.Proof.Gen.ReferenceIdeal
import proofs.«178636_j39771397161405_2_alg».proof.Proof.Terms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded over the call's buffers. -/
abbrev ops : List (HloOp τ sig (Elt F)) :=
  [ nullary main_c (constantI S_ 32 1#32),
    TRef.nullary main_call0.cst (constant S_ .f32 0x00000000#32),
    TRef.binary (.of main_arg0) main_call0.cst main_call0.v0 (fun x v => Host.reduceAdd x v reducesTo_S8x2048x128_S8x2048_d2 h_S_),
    TRef.unary main_call0.v0 main_call0.v1 (broadcastInDim S8x2048x1 ![0, 1] bcast_S8x2048_S8x2048x1_0_1),
    TRef.nullary main_call0.cst_0 (constant S_ .f32 0x43000000#32),
    TRef.unary main_call0.cst_0 main_call0.v2 (broadcastInDim S8x2048x1 ![] bcast_S_S8x2048x1),
    TRef.binary main_call0.v1 main_call0.v2 main_call0.v3 Host.divf,
    TRef.unary main_call0.v3 main_call0.v4 (broadcastInDim S8x2048x128 ![0, 1, 2] bcast_S8x2048x1_S8x2048x128_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x43000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x2048x128_S8x2048_d2 h_S_),
    TRef.unary main_call0.v9 main_call0.v10 (broadcastInDim S8x2048x1 ![0, 1] bcast_S8x2048_S8x2048x1_0_1),
    TRef.unary main_call0.v8 main_call0.v11 (broadcastInDim S8x2048x1 ![] bcast_S_S8x2048x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8x2048x1 ![] bcast_S_S8x2048x1),
    TRef.ternary main_call0.v13 main_call0.v12 main_call0.call0.v1 main_call0.call0.v2 (fun p a b => select (broadcastInDim S8x2048x1 ![] bcast_S_S8x2048x1 p) a b),
    nullary main_cst (constant S_ .f32 0x358637BD#32),
    unary main_cst main_v1 (broadcastInDim S8x2048x1 ![] bcast_S_S8x2048x1 : (⟨S_, .f32⟩ : BufTy).Contents (Elt F) → (⟨S8x2048x1, .f32⟩ : BufTy).Contents (Elt F)),
    binary main_v0 main_v1 main_v2 (addf : (⟨S8x2048x1, .f32⟩ : BufTy).Contents (Elt F) → (⟨S8x2048x1, .f32⟩ : BufTy).Contents (Elt F) → (⟨S8x2048x1, .f32⟩ : BufTy).Contents (Elt F)),
    nullary main_cst_0 (constant S_ .f32 0x3F800000#32),
    unary main_cst_0 main_v3 (broadcastInDim S8x2048x1 ![] bcast_S_S8x2048x1 : (⟨S_, .f32⟩ : BufTy).Contents (Elt F) → (⟨S8x2048x1, .f32⟩ : BufTy).Contents (Elt F)),
    binary main_v3 main_v2 main_v4 (Host.divf : (⟨S8x2048x1, .f32⟩ : BufTy).Contents (Elt F) → (⟨S8x2048x1, .f32⟩ : BufTy).Contents (Elt F) → (⟨S8x2048x1, .f32⟩ : BufTy).Contents (Elt F)),
    nullary main_cst_1 (constant S_ .f32 0xFF800000#32),
    binary main_v4 main_cst_1 main_v5 ((fun x v => Host.reduce FloatOps.maximumf x v reducesTo_S8x2048x1_S_d0_1_2 h_S_) : (⟨S8x2048x1, .f32⟩ : BufTy).Contents (Elt F) → (⟨S_, .f32⟩ : BufTy).Contents (Elt F) → (⟨S_, .f32⟩ : BufTy).Contents (Elt F)),
    unary main_v5 main_v6 (broadcastInDim S8x2048x1 ![] bcast_S_S8x2048x1 : (⟨S_, .f32⟩ : BufTy).Contents (Elt F) → (⟨S8x2048x1, .f32⟩ : BufTy).Contents (Elt F)),
    binary main_v4 main_v6 main_v7 (Host.divf : (⟨S8x2048x1, .f32⟩ : BufTy).Contents (Elt F) → (⟨S8x2048x1, .f32⟩ : BufTy).Contents (Elt F) → (⟨S8x2048x1, .f32⟩ : BufTy).Contents (Elt F)),
    unary main_v7 main_v8 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_arg1 main_v8 main_v9 (mulf : (⟨S8x2048x2048, .f32⟩ : BufTy).Contents (Elt F) → (⟨S8x2048x2048, .f32⟩ : BufTy).Contents (Elt F) → (⟨S8x2048x2048, .f32⟩ : BufTy).Contents (Elt F)),
    nullary main_cst_2 (constant S_ .f32 0xFF800000#32),
    binary main_v9 main_cst_2 main_v10 ((fun x v => Host.reduce FloatOps.maximumf x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    nullary main_cst_3 (constant S_ .f32 0xFF800000#32),
    unary main_cst_3 main_v11 (broadcastInDim S8x2048 ![] bcast_S_S8x2048 : (⟨S_, .f32⟩ : BufTy).Contents (Elt F) → (⟨S8x2048, .f32⟩ : BufTy).Contents (Elt F)),
    binary main_v11 main_v10 main_v12 (maximumf : (⟨S8x2048, .f32⟩ : BufTy).Contents (Elt F) → (⟨S8x2048, .f32⟩ : BufTy).Contents (Elt F) → (⟨S8x2048, .f32⟩ : BufTy).Contents (Elt F)),
    unary main_v12 main_v13 (broadcastInDim S8x2048x1 ![0, 1] bcast_S8x2048_S8x2048x1_0_1 : (⟨S8x2048, .f32⟩ : BufTy).Contents (Elt F) → (⟨S8x2048x1, .f32⟩ : BufTy).Contents (Elt F)),
    unary main_v13 main_v14 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v9 main_v14 main_v15 (subf : (⟨S8x2048x2048, .f32⟩ : BufTy).Contents (Elt F) → (⟨S8x2048x2048, .f32⟩ : BufTy).Contents (Elt F) → (⟨S8x2048x2048, .f32⟩ : BufTy).Contents (Elt F)),
    unary main_v15 main_v16 (Host.exp : (⟨S8x2048x2048, .f32⟩ : BufTy).Contents (Elt F) → (⟨S8x2048x2048, .f32⟩ : BufTy).Contents (Elt F)),
    nullary main_cst_4 (constant S_ .f32 0x00000000#32),
    binary main_v16 main_cst_4 main_v17 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    unary main_v17 main_v18 (broadcastInDim S8x2048x1 ![0, 1] bcast_S8x2048_S8x2048x1_0_1 : (⟨S8x2048, .f32⟩ : BufTy).Contents (Elt F) → (⟨S8x2048x1, .f32⟩ : BufTy).Contents (Elt F)),
    unary main_v18 main_v19 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v16 main_v19 main_v20 (Host.divf : (⟨S8x2048x2048, .f32⟩ : BufTy).Contents (Elt F) → (⟨S8x2048x2048, .f32⟩ : BufTy).Contents (Elt F) → (⟨S8x2048x2048, .f32⟩ : BufTy).Contents (Elt F)),
    binary main_v20 main_arg0 main_v21 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)) ]

set_option maxRecDepth 2048 in
/-- @main is that straight line: the two functions' definitions unfolded at their calls, both sides one chain of
    operations once the sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., binary_bufs_sub ..⟩

attribute [local irreducible] Host.reduce Host.reduceAdd FloatOps.dotGeneral in
set_option maxRecDepth 8192 in
set_option maxHeartbeats 1600000 in
/-- The operations' fold at the result buffer is the reference's one function of the two argument arrays: each
    operation's result read at its own buffer is its function of its operands' contents, at any other buffer what
    was there; the reductions and the product stay folded while the two spellings are compared. -/
theorem out_eq (V : Valuation τ sig (Elt F)) :
    after ops V (main_v21 : DevRef τ sig)
      = Cert.Attn.refOut (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- Every weakly fair execution of the reference terminates with the result buffer at `refOut` of the two argument
    arrays as launched, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
          = Cert.Attn.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.LibSoftmaxLaw.lean ====
/-
  A softmax-weighted sum on the extended reals: normalising before or after the contraction.

  The one law that joins the two programs.

  For one row let `s k` be the scaled noise at key `k` and `x k` the feature paired with that key.  With
  `M = max_k s k` (the fold of `max` from `-∞`), `p k = exp (s k - M)` and `L = ∑ p`, the kernel divides after
  the contraction, `(∑ p k · x k) / L`, the reference before it, `∑ (p k / L) · x k`.  When every `s k` is a real
  number and there is at least one key, `M` is real, every `p k` is a positive real and `L` a positive real, so
  dividing by `L` is multiplying by the nonnegative real `1 / L`, and a nonnegative real factor distributes over
  a sum of extended reals whatever the `x k` are.  (Without realness of the `s k` the law fails: if every `p k` is
  `0` the two sides are `0 / 0` against `∑ (0 / 0) · x k`.)
-/
import Idealize.ShloMosaic.PureOps.Ideal

noncomputable section

namespace Cert.Attn.Law

open Idealize.ShloMosaic

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A nonnegative real factor distributes over a finite sum of extended reals. -/
theorem sum_mul_coe {ι : Type*} (t : Finset ι) (y : ι → EReal) {c : ℝ} (hc : 0 ≤ c) :
    (∑ i ∈ t, y i) * (c : EReal) = ∑ i ∈ t, y i * (c : EReal) := by
  classical
  induction t using Finset.induction_on with
  | empty => simp
  | insert a t ha ih =>
    rw [Finset.sum_insert ha, Finset.sum_insert ha,
      EReal.right_distrib_of_nonneg_of_ne_top (EReal.coe_nonneg.2 hc) (EReal.coe_ne_top c), ih]

variable {K : ℕ}

/-- A row's maximum: the fold of `max` from `-∞` over the keys. -/
def rowMaxE (s : Fin K → EReal) : EReal := (Finset.univ : Finset (Fin K)).fold max ⊥ s

/-- The kernel's arrangement: contract the numerators with the features, then divide by their sum. -/
def kform (s x : Fin K → EReal) : EReal :=
  Ideal.div (∑ k, Ideal.exp (s k - rowMaxE s) * x k) (∑ k, Ideal.exp (s k - rowMaxE s))

/-- The reference's arrangement: divide each numerator by the sum (taken from `0`), then contract; its maximum is
    taken once more against `-∞`. -/
def rform (s x : Fin K → EReal) : EReal :=
  ∑ k, Ideal.div (Ideal.exp (s k - max ⊥ (rowMaxE s))) (0 + ∑ j, Ideal.exp (s j - max ⊥ (rowMaxE s))) * x k

/-- With real scaled noise over a nonempty row the maximum is a real number. -/
theorem rowMaxE_real (hK : 0 < K) (s : Fin K → EReal) (hs : ∀ k, ∃ r : ℝ, s k = r) : ∃ M : ℝ, rowMaxE s = M := by
  obtain ⟨r0, hr0⟩ := hs ⟨0, hK⟩
  have h1 : rowMaxE s ≠ ⊥ := by
    have h : s ⟨0, hK⟩ ≤ rowMaxE s := (Finset.le_fold_max _).2 (Or.inr ⟨_, Finset.mem_univ _, le_rfl⟩)
    rw [hr0] at h
    exact ne_bot_of_le_ne_bot (EReal.coe_ne_bot _) h
  have h2 : rowMaxE s ≠ ⊤ :=
    ne_of_lt ((Finset.fold_max_lt _).2 ⟨bot_lt_top, fun k _ => by obtain ⟨r, hr⟩ := hs k; rw [hr]; exact EReal.coe_lt_top _⟩)
  exact ⟨(rowMaxE s).toReal, (EReal.coe_toReal h2 h1).symm⟩

/-- THE LAW: over real scaled noise and a nonempty row, dividing before or after the contraction is the same. -/
theorem rform_eq_kform (hK : 0 < K) (s x : Fin K → EReal) (hs : ∀ k, ∃ r : ℝ, s k = r) : rform s x = kform s x := by
  obtain ⟨M, hM⟩ := rowMaxE_real hK s hs
  choose r hr using hs
  have hp : ∀ k, Ideal.exp (s k - rowMaxE s) = ((Real.exp (r k - M) : ℝ) : EReal) := fun k => by
    rw [hr, hM, ← EReal.coe_sub]; rfl
  unfold rform kform
  rw [max_eq_right bot_le, zero_add]
  simp only [hp]
  rw [← coe_sum]
  have hL : 0 < ∑ k, Real.exp (r k - M) :=
    Finset.sum_pos (fun k _ => Real.exp_pos _) ⟨⟨0, hK⟩, Finset.mem_univ _⟩
  simp only [Ideal.div_coe hL.ne']
  rw [sum_mul_coe _ _ (by positivity)]
  exact Finset.sum_congr rfl fun k _ => mul_right_comm _ _ _

end Cert.Attn.Law

end
-- ==== Proof.RefAt.lean ====
/-
  The reference read at an index.

  At result index `(b, q, f)` the batched product contracts key `k` of row `(b, q)` of the probabilities with
  feature `f` of key `k` of the same batch.  The probabilities of a row depend on that row's scaled noise only:
  the row maximum is the fold of `max` from `-∞` over the row's keys (and once more against `-∞`), the row sum
  starts from `0`.  So the reference at `(b, q, f)` is the arrangement `Law.rform` of the row's scaled noise
  `k ↦ n (b, q, k) · st (b, q)` and the feature column `k ↦ x (b, k, f)`.
-/
import proofs.«178636_j39771397161405_2_alg».proof.Proof.Terms
import proofs.«178636_j39771397161405_2_alg».proof.Proof.LibSoftmaxLaw
import Idealize.ShloMosaic.PureOps.Ideal.Laws
import Idealize.ShloMosaic.Lib.ValueIdx
import Idealize.ShloMosaic.Lib.Pipeline.Value

noncomputable section

namespace Cert.Attn.RefAt

open Idealize.ShloMosaic Idealize.ShloMosaic.ValueIdx Cert.Attn

/-! ## The batched product as a sum over the keys -/

theorem lhs0 (i : SF.Idx) (c : dotB.contr.Idx) : (dotB.lhsIdx i c 0).val = (i 0).val := by
  unfold DotDims.lhsIdx
  rw [dif_pos (show (0 : Fin SN.rank) ∈ dotB.lhsBatch by simp [dotB])]
  rfl

theorem lhs1 (i : SF.Idx) (c : dotB.contr.Idx) : (dotB.lhsIdx i c 1).val = (i 1).val := by
  unfold DotDims.lhsIdx
  rw [dif_neg (show ¬(1 : Fin SN.rank) ∈ dotB.lhsBatch by simp [dotB]),
    dif_pos (show (1 : Fin SN.rank) ∈ dotB.lhsNonContracting by simp [dotB])]
  rfl

theorem rhs0 (i : SF.Idx) (c : dotB.contr.Idx) : (dotB.rhsIdx i c 0).val = (i 0).val := by
  unfold DotDims.rhsIdx
  rw [dif_pos (show (0 : Fin SF.rank) ∈ dotB.rhsBatch by simp [dotB])]
  rfl

theorem rhs2 (i : SF.Idx) (c : dotB.contr.Idx) : (dotB.rhsIdx i c 2).val = (i 2).val := by
  unfold DotDims.rhsIdx
  rw [dif_neg (show ¬(2 : Fin SF.rank) ∈ dotB.rhsBatch by simp [dotB]),
    dif_pos (show (2 : Fin SF.rank) ∈ dotB.rhsNonContracting by simp [dotB])]
  rfl

/-- The contraction of the batched product runs over the 2048 keys: the left operand is read at
    `(batch, row, key)`, the right at `(batch, key, feature)`. -/
theorem sum_dotB {α : Type*} [AddCommMonoid α] (g : SN.Idx → SF.Idx → α) (b : Fin 8) (q : Fin 2048) (f : Fin 128) :
    ∑ c : dotB.contr.Idx, g (dotB.lhsIdx (ix3 b q f) c) (dotB.rhsIdx (ix3 b q f) c)
      = ∑ k : Fin 2048, g (ix3 b q k) (ix3 b k f) := by
  rw [← Equiv.sum_comp (contrEquiv1 dotB 2048 rfl rfl).symm]
  refine Finset.sum_congr rfl fun k _ => ?_
  have hk := contrEquiv1_symm_val dotB 2048 rfl rfl k
  have el : dotB.lhsIdx (ix3 b q f) ((contrEquiv1 dotB 2048 rfl rfl).symm k) = ix3 b q k :=
    funext fun a => Fin.ext (by
      match a with
      | ⟨0, _⟩ => exact lhs0 _ _
      | ⟨1, _⟩ => exact lhs1 _ _
      | ⟨2, _⟩ => exact (dotB.lhsIdx_val_of_single (cl := 2) rfl _ _).trans hk)
  have er : dotB.rhsIdx (ix3 b q f) ((contrEquiv1 dotB 2048 rfl rfl).symm k) = ix3 b k f :=
    funext fun a => Fin.ext (by
      match a with
      | ⟨0, _⟩ => exact rhs0 _ _
      | ⟨1, _⟩ => exact (dotB.rhsIdx_val_of_single (cr := 1) rfl _ _).trans hk
      | ⟨2, _⟩ => exact rhs2 _ _)
  rw [el, er]

/-! ## The broadcasts at an index -/

variable {α : Type}

/-- A per-row entry kept as a column reads the row's entry, whatever the unit coordinate. -/
theorem rowToCol_apply (r : SR.Idx → α) (b : Fin 8) (q : Fin 2048) (u : Fin 1) :
    broadcastInDim SC ![0, 1] bc_R_C r (ix3 b q u) = r (ix2 b q) :=
  broadcastInDim_apply _ bc_R_C r _ _ fun a => by
    match a with
    | ⟨0, _⟩ => rfl
    | ⟨1, _⟩ => rfl

/-- A column spread over the keys reads the row's entry at every key. -/
theorem colToKeys_apply (c : SC.Idx → α) (b : Fin 8) (q : Fin 2048) (k : Fin 2048) :
    broadcastInDim SN ![0, 1, 2] bc_C_N c (ix3 b q k) = c (ix3 b q (0 : Fin 1)) :=
  broadcastInDim_apply _ bc_C_N c _ _ fun a => by
    match a with
    | ⟨0, _⟩ => rfl
    | ⟨1, _⟩ => rfl
    | ⟨2, _⟩ => rfl

theorem overKeys_apply (r : FVec Ideal SR .f32) (b : Fin 8) (q : Fin 2048) (k : Fin 2048) :
    overKeys r (ix3 b q k) = r (ix2 b q) := by
  unfold overKeys
  rw [colToKeys_apply, rowToCol_apply]

/-! ## The row reductions -/

theorem redN : SN.Reduces [2] SR := by decide

theorem lift_eq (b : Fin 8) (q : Fin 2048) (k : Fin 2048) : redN.lift (ix2 b q) k = ix3 b q k :=
  funext fun a => Fin.ext (by
    match a with
    | ⟨0, _⟩ => rfl
    | ⟨1, _⟩ => rfl
    | ⟨2, _⟩ => rfl)

theorem ninf : Ideal.ofBits .f32 0xFF800000#32 = ⊥ := by simp [Ideal.ofBits, Ideal.ieee]

/-- A row's maximum is the fold of `max` from `-∞` over the row's keys, taken once more against `-∞`. -/
theorem rowMax_apply (s : FVec Ideal SN .f32) (b : Fin 8) (q : Fin 2048) :
    rowMax s (ix2 b q) = max ⊥ (Law.rowMaxE fun k => s (ix3 b q k)) := by
  unfold rowMax
  rw [maximumf_apply]
  show max (Ideal.ofBits .f32 0xFF800000#32) _ = _
  rw [Host.reduce_eq_fold_single FloatOps.maximumf s _ red_N redN h0 (ix2 b q), ninf]
  show max ⊥ ((Finset.univ : Finset (Fin 2048)).fold max (Ideal.ofBits .f32 0xFF800000#32) (s ∘ redN.lift (ix2 b q))) = _
  rw [ninf]
  unfold Law.rowMaxE
  congr 2
  funext k
  exact congrArg s (lift_eq b q k)

/-- A row's sum starts from `0` and runs over the row's keys. -/
theorem rowSum_apply (p : FVec Ideal SN .f32) (b : Fin 8) (q : Fin 2048) :
    Host.reduceAdd p (constant (F := Ideal) S0 .f32 0x00000000#32) red_N h0 (ix2 b q) = 0 + ∑ k : Fin 2048, p (ix3 b q k) := by
  show Ideal.hostReduceAdd red_N p (Ideal.ofBits .f32 0x00000000#32) (ix2 b q) = _
  rw [Ideal.hostReduceAdd_single red_N redN, Ideal.ofBits_zero_f32]
  refine congrArg (0 + ·) (Finset.sum_congr rfl fun k _ => ?_)
  exact congrArg p (lift_eq b q k)

/-! ## The softmax numerators and the whole reference -/

theorem scaled_apply (st : FVec Ideal SC .f32) (n : FVec Ideal SN .f32) (b : Fin 8) (q : Fin 2048) (k : Fin 2048) :
    scaled st n (ix3 b q k) = n (ix3 b q k) * st (ix3 b q (0 : Fin 1)) := by
  unfold scaled
  rw [mulf_apply, colToKeys_apply]

theorem numer_apply (s : FVec Ideal SN .f32) (b : Fin 8) (q : Fin 2048) (k : Fin 2048) :
    numer s (ix3 b q k) = Ideal.exp (s (ix3 b q k) - max ⊥ (Law.rowMaxE fun j => s (ix3 b q j))) := by
  unfold numer
  show Ideal.exp (subf s (overKeys (rowMax s)) (ix3 b q k)) = _
  rw [subf_apply, overKeys_apply, rowMax_apply]

/-- THE REFERENCE AT AN INDEX: the arrangement `Law.rform` of the row's scaled noise and the feature column. -/
theorem attend_apply (st : FVec Ideal SC .f32) (x : FVec Ideal SF .f32) (n : FVec Ideal SN .f32)
    (b : Fin 8) (q : Fin 2048) (f : Fin 128) :
    attend st x n (ix3 b q f)
      = Law.rform (fun k => n (ix3 b q k) * st (ix3 b q (0 : Fin 1))) (fun k => x (ix3 b k f)) := by
  unfold attend
  show FloatOps.dotGeneral dotB none .single _ x (ix3 b q f) = _
  rw [Ideal.dotGeneral_apply]
  refine (sum_dotB (fun a c => Host.divf (F := Ideal) (φ := .f32) _ _ a * x c) b q f).trans ?_
  unfold Law.rform
  refine Finset.sum_congr rfl fun k _ => ?_
  refine congrArg (· * x (ix3 b k f)) ?_
  show Ideal.div (numer (scaled st n) (ix3 b q k)) (overKeys (F := Ideal) _ (ix3 b q k)) = _
  rw [overKeys_apply, rowSum_apply, numer_apply]
  simp only [numer_apply, scaled_apply]

end Cert.Attn.RefAt

end
-- ==== Proof.LibColumn.lean ====
/-
  Two layout operations read at an index, for a per-row quantity kept as a column (a reduction over the last axis
  with the reduced axis kept as a unit axis): a vector of `a` entries cast to the column `[a, 1]`, and a column
  `[a, 1]` broadcast along its unit axis to `[a, b]`. Both are instances of the general readings of a shape cast
  (same row-major position) and of a broadcast (coordinate 0 on the operand's unit axes).
-/
import Idealize.ShloMosaic.Lib.Pipeline.Value
import Idealize.ShloMosaic.Lib.ValueIdx

namespace Cert.LibColumn

open Idealize.ShloMosaic Idealize.ShloMosaic.ValueIdx

variable {α : Type}

/-- A vector `[a]` cast to the column `[a, 1]` reads, at `(i, u)`, the vector at `i`, whatever the unit coordinate `u`:
    position `i · 1 + u = i` in both. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.KernelAt.lean ====
/-
  What the kernel body stores, read at an index.

  At a grid point the body holds one batch's 1024 rows: the rows' factors `v0` (a column), their noise `v2` (1024 rows
  of 2048 keys) and the batch's features `v4` (2048 keys of 128 features).  It scales each noise row by the row's
  factor, takes the row maximum (a lane reduction by `max` from `-∞`), exponentiates the differences, sums them along
  the row, multiplies the numerators into the features on the matrix unit from a zero accumulator, and divides each
  row of the product by the row's sum.  At row `r` and feature `f` that is the arrangement `Law.kform` of the row's
  scaled noise `k ↦ v2 (0, r, k) · v0 (0, r, 0)` and the feature column `k ↦ v4 (0, k, f)`.
-/
import proofs.«178636_j39771397161405_2_alg».proof.Proof.Gen.KernelIdeal.Skeleton
import proofs.«178636_j39771397161405_2_alg».proof.Proof.LibSoftmaxLaw
import proofs.«178636_j39771397161405_2_alg».proof.Proof.LibColumn
import proofs.«178636_j39771397161405_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayAt

open Cert.KernelIdeal Cert.KernelIdeal.Gen Idealize.ShloMosaic Idealize.ShloMosaic.ValueIdx

theorem exp_apply {s : Shape} {φ : FTy} (a : FVec Ideal s φ) (i : s.Idx) : exp a i = Ideal.exp (a i) := rfl

theorem ninf : Ideal.ofBits .f32 0xFF800000#32 = ⊥ := by simp [Ideal.ofBits, Ideal.ieee]

/-- The index a lane reduction of a `[1024, 2048]` block reads at row `r`, key `k`. -/
theorem lift_eq (h : S1024x2048.Reduces [1] S1024) (r : Fin 1024) (k : Fin 2048) : h.lift (ix1 r) k = ix2 r k :=
  funext fun a => Fin.ext (by
    match a with
    | ⟨0, _⟩ => rfl
    | ⟨1, _⟩ => rfl)

/-- The scaled noise of row `r` at key `k`: the noise times the row's factor. -/
theorem scaled_apply (v0 : FVec Ideal S1x1024x1 .f32) (v2 : FVec Ideal S1x1024x2048 .f32)
    (h0 : S1x1024x1.ShapeCasts S1024x1) (h2 : S1x1024x2048.ShapeCasts S1024x2048) (hb : S1024x1.Broadcasts S1024x2048)
    (r : Fin 1024) (k : Fin 2048) :
    mulf (shapeCast S1024x2048 v2 h2) (broadcastTo S1024x2048 (shapeCast S1024x1 v0 h0) hb) (ix2 r k)
      = v2 (ix3 (0 : Fin 1) r k) * v0 (ix3 (0 : Fin 1) r (0 : Fin 1)) := by
  rw [mulf_apply, shapeCast_1ab_ab_apply, Cert.LibColumn.broadcastTo_a1_ab_apply, shapeCast_1ab_ab_apply]

/-- The row maximum spread back over the keys: the fold of `max` from `-∞` over the row. -/
theorem rowMax_apply (s : FVec Ideal S1024x2048 .f32) (h : S1024x2048.Reduces [1] S1024) (hφ : FKind.Formats .f32)
    (hacc : (0xFF800000#32 : BitVec 32) = 0xFF800000#32) (hc : S1024.ShapeCasts S1024x1)
    (hb : S1024x1.Broadcasts S1024x2048) (r : Fin 1024) (k : Fin 2048) :
    broadcastTo S1024x2048 (shapeCast S1024x1 (multiReduction .maximumf [1] S1024 s 0xFF800000#32 h hφ hacc) hc) hb (ix2 r k)
      = Cert.Attn.Law.rowMaxE fun j : Fin 2048 => s (ix2 r j) := by
  rw [Cert.LibColumn.broadcastTo_a1_ab_apply, Cert.LibColumn.shapeCast_a_a1_apply]
  refine (Ideal.multiReduction_maximumf_single s 0xFF800000#32 h hφ hacc (ix1 r)).trans ?_
  show (Finset.univ : Finset (Fin 2048)).fold max (Ideal.ofBits .f32 0xFF800000#32) (s ∘ h.lift (ix1 r)) = _
  rw [ninf]
  unfold Cert.Attn.Law.rowMaxE
  congr 1
  funext j
  exact congrArg s (lift_eq h r j)

/-- The row sum spread over the features: the sum over the row's keys. -/
theorem rowSum_apply (p : FVec Ideal S1024x2048 .f32) (h : S1024x2048.Reduces [1] S1024) (hφ : FKind.Formats .f32)
    (hacc : (0x00000000#32 : BitVec 32) = 0x00000000#32) (hc : S1024.ShapeCasts S1024x1)
    (hb : S1024x1.Broadcasts S1024x128) (r : Fin 1024) (f : Fin 128) :
    broadcastTo S1024x128 (shapeCast S1024x1 (multiReduction .add [1] S1024 p 0x00000000#32 h hφ hacc) hc) hb (ix2 r f)
      = ∑ k : Fin 2048, p (ix2 r k) := by
  rw [Cert.LibColumn.broadcastTo_a1_ab_apply, Cert.LibColumn.shapeCast_a_a1_apply]
  refine (Ideal.multiReduction_add_single p 0x00000000#32 h hφ hacc (ix1 r)).trans ?_
  refine Finset.sum_congr rfl fun k _ => ?_
  exact congrArg p (lift_eq h r k)

/-- The product on the matrix unit from a zero accumulator: the sum over the keys. -/
theorem product_apply (p : FVec Ideal S1024x2048 .f32) (w : FVec Ideal S2048x128 .f32) (r : Fin 1024) (f : Fin 128) :
    matmul dot_S1024x2048_S2048x128_S1024x128_1_0_0_1_n_n none p w (constant S1024x128 .f32 0x00000000#32) (ix2 r f)
      = ∑ k : Fin 2048, p (ix2 r k) * w (ix2 k f) :=
  Cert.Lib.PlainDot.matmul_zero_apply 1024 2048 128 none p w (ix2 r f)

/-- WHAT THE BODY STORES AT `(0, r, f)`: the arrangement `Law.kform` of the row's scaled noise and the feature column. -/
theorem pay_apply (v0 : FVec Ideal S1x1024x1 .f32) (v2 : FVec Ideal S1x1024x2048 .f32) (v4 : FVec Ideal S1x2048x128 .f32)
    (u : Fin 1) (r : Fin 1024) (f : Fin 128) :
    k0_pay1 (F := Ideal) v0 v2 v4 (ix3 u r f)
      = Cert.Attn.Law.kform (fun k : Fin 2048 => v2 (ix3 (0 : Fin 1) r k) * v0 (ix3 (0 : Fin 1) r (0 : Fin 1)))
          (fun k => v4 (ix3 (0 : Fin 1) k f)) := by
  unfold k0_pay1
  dsimp only
  obtain ⟨S, hS⟩ : ∃ S : FVec Ideal S1024x2048 .f32, S = mulf (shapeCast S1024x2048 v2 shapeCasts_S1x1024x2048_S1024x2048)
      (broadcastTo S1024x2048 (shapeCast S1024x1 v0 shapeCasts_S1x1024x1_S1024x1) broadcasts_S1024x1_S1024x2048) := ⟨_, rfl⟩
  rw [← hS]
  have hSk : ∀ k : Fin 2048, S (ix2 r k) = v2 (ix3 (0 : Fin 1) r k) * v0 (ix3 (0 : Fin 1) r (0 : Fin 1)) := fun k => by
    rw [hS]; exact scaled_apply v0 v2 _ _ _ r k
  obtain ⟨MB, hMB⟩ : ∃ MB : FVec Ideal S1024x2048 .f32, MB = broadcastTo S1024x2048
      (shapeCast S1024x1 (multiReduction .maximumf [1] S1024 S 0xFF800000#32 reduces_S1024x2048_S1024 (.inl rfl) rfl)
        shapeCasts_S1024_S1024x1) broadcasts_S1024x1_S1024x2048 := ⟨_, rfl⟩
  rw [← hMB]
  have hMBk : ∀ k : Fin 2048, MB (ix2 r k) = Cert.Attn.Law.rowMaxE fun j : Fin 2048 => S (ix2 r j) := fun k => by
    rw [hMB]; exact rowMax_apply S _ _ _ _ _ r k
  rw [shapeCast_ab_1ab_apply, divf_apply, product_apply, rowSum_apply]
  unfold Cert.Attn.Law.kform
  simp only [exp_apply, subf_apply, hMBk, hSk, shapeCast_1ab_ab_apply]

end Cert.KernelIdeal.PayAt

end
-- ==== Proof.StabReal.lean ====
/-
  The per-row factor is a real number.

  With every feature a real number: a row's sum and mean are real, so its deviations and their squares are real,
  the variance is a nonnegative real (a sum of squares over `127`), `var + ε` a positive real and `a = 1 / (var + ε)`
  a positive real.  The maximum of `a` over all rows (a fold of `max` from `-∞`) is at least any one `a`, hence
  positive, hence not zero; dividing the real `a` by it gives a real whether that maximum is finite or not
  (`a / +∞ = 0`).  This is what keeps the softmax away from `0 / 0`.
-/
import proofs.«178636_j39771397161405_2_alg».proof.Proof.Terms
import proofs.«178636_j39771397161405_2_alg».proof.Proof.LibSoftmaxLaw
import proofs.«178636_j39771397161405_2_alg».proof.Proof.RefAt
import Idealize.ShloMosaic.PureOps.Ideal.Laws
import Idealize.ShloMosaic.Lib.ValueIdx
import Idealize.ShloMosaic.Lib.Pipeline.Value

noncomputable section

namespace Cert.Attn.StabReal

open Idealize.ShloMosaic Idealize.ShloMosaic.ValueIdx Cert.Attn

/-! ## The literals -/

theorem c128 : Ideal.ofBits .f32 0x43000000#32 = ((128 : ℝ) : EReal) := by
  simp [Ideal.ofBits, Ideal.ieee, -EReal.coe_mul]
  norm_num

theorem c1 : Ideal.ofBits .f32 0x3F800000#32 = ((1 : ℝ) : EReal) := by
  simp [Ideal.ofBits, Ideal.ieee, -EReal.coe_mul]
  norm_num

/-- `ε` is a positive real (its exact value does not matter). -/
theorem ceps : ∃ e : ℝ, 0 < e ∧ Ideal.ofBits .f32 0x358637BD#32 = (e : EReal) := by
  refine ⟨8796093 / 2 ^ 43, by positivity, ?_⟩
  simp [Ideal.ofBits, Ideal.ieee, -EReal.coe_mul]
  norm_num

theorem one_toInt : ((1#32 : BitVec 32).toInt : ℝ) = 1 := by
  norm_num [BitVec.toInt]

theorem guard : Ideal.cmp .ogt (((127 : ℝ) : EReal)) 0 = 1#1 := by
  simp [Ideal.cmp]

/-- The degrees of freedom are `127`. -/
theorem dof_eq : dof (F := Ideal) ix0 = ((127 : ℝ) : EReal) := by
  show Ideal.ofBits .f32 0x43000000#32 - (((1#32 : BitVec 32).toInt : ℝ) : EReal) = _
  rw [c128, one_toInt, ← EReal.coe_sub]
  norm_num

/-! ## The broadcasts at an index -/

/-- The host's quotient of two arrays at an index. -/
theorem hostDivf_apply {s : Shape} {φ : FTy} (a b : FVec Ideal s φ) (i : s.Idx) :
    Host.divf a b i = Ideal.div (a i) (b i) := rfl

variable {α : Type}

theorem scalarToCol_apply (c : S0.Idx → α) (i : SC.Idx) : broadcastInDim SC ![] bc_0_C c i = c ix0 :=
  broadcastInDim_apply _ bc_0_C c _ _ fun a => a.elim0

theorem colToFeat_apply (c : SC.Idx → α) (b : Fin 8) (q : Fin 2048) (f : Fin 128) :
    broadcastInDim SF ![0, 1, 2] bc_C_F c (ix3 b q f) = c (ix3 b q (0 : Fin 1)) :=
  broadcastInDim_apply _ bc_C_F c _ _ fun a => by
    match a with
    | ⟨0, _⟩ => rfl
    | ⟨1, _⟩ => rfl
    | ⟨2, _⟩ => rfl

/-! ## A row sum of reals, and a per-row quotient by a real scalar -/

theorem redF : SF.Reduces [2] SR := by decide

theorem liftF (b : Fin 8) (q : Fin 2048) (f : Fin 128) : redF.lift (ix2 b q) f = ix3 b q f :=
  funext fun a => Fin.ext (by
    match a with
    | ⟨0, _⟩ => rfl
    | ⟨1, _⟩ => rfl
    | ⟨2, _⟩ => rfl)

/-- A row whose 128 entries are reals sums (from `0`) to the real sum. -/
theorem rowSum_coe (y : FVec Ideal SF .f32) (b : Fin 8) (q : Fin 2048) (r : Fin 128 → ℝ)
    (hy : ∀ f, y (ix3 b q f) = (r f : EReal)) :
    Host.reduceAdd y (constant (F := Ideal) S0 .f32 0x00000000#32) red_F h0 (ix2 b q) = ((∑ f, r f : ℝ) : EReal) := by
  show Ideal.hostReduceAdd red_F y (Ideal.ofBits .f32 0x00000000#32) (ix2 b q) = _
  rw [Ideal.hostReduceAdd_single red_F redF, Ideal.ofBits_zero_f32, zero_add, Law.coe_sum]
  refine Finset.sum_congr rfl fun f _ => ?_
  exact (congrArg y (liftF b q f)).trans (hy f)

/-- A per-row real over a nonzero real scalar, as a column: the real quotient. -/
theorem colDiv (y : FVec Ideal SR .f32) (c : FVec Ideal S0 .f32) (b : Fin 8) (q : Fin 2048) (u : Fin 1) (s d : ℝ)
    (hd : d ≠ 0) (hy : y (ix2 b q) = (s : EReal)) (hc : c ix0 = (d : EReal)) :
    Host.divf (broadcastInDim SC ![0, 1] bc_R_C y) (broadcastInDim SC ![] bc_0_C c) (ix3 b q u)
      = ((s * (1 / d) : ℝ) : EReal) := by
  show Ideal.div (broadcastInDim SC ![0, 1] bc_R_C y (ix3 b q u)) (broadcastInDim SC ![] bc_0_C c (ix3 b q u)) = _
  rw [RefAt.rowToCol_apply, scalarToCol_apply, hy, hc, Ideal.div_coe hd, ← EReal.coe_mul]

/-! ## The chain -/

section Chain

variable (x : FVec Ideal SF .f32) (r : SF.Idx → ℝ) (hr : ∀ i, x i = (r i : EReal))
include hr

theorem rowMean_eq (b : Fin 8) (q : Fin 2048) (u : Fin 1) :
    rowMean x (ix3 b q u) = (((∑ f, r (ix3 b q f)) * (1 / 128) : ℝ) : EReal) :=
  colDiv _ _ b q u _ 128 (by norm_num) (rowSum_coe x b q (fun f => r (ix3 b q f)) fun f => hr _) c128

theorem rowDev_eq (b : Fin 8) (q : Fin 2048) (f : Fin 128) :
    rowDev x (ix3 b q f) = ((r (ix3 b q f) - (∑ g, r (ix3 b q g)) * (1 / 128) : ℝ) : EReal) := by
  unfold rowDev
  rw [subf_apply, colToFeat_apply, rowMean_eq x r hr, hr, ← EReal.coe_sub]

/-- The variance of a row is a nonnegative real. -/
theorem rowVar_real (b : Fin 8) (q : Fin 2048) (u : Fin 1) : ∃ v : ℝ, 0 ≤ v ∧ rowVar x (ix3 b q u) = (v : EReal) := by
  refine ⟨(∑ f, (r (ix3 b q f) - (∑ g, r (ix3 b q g)) * (1 / 128)) * (r (ix3 b q f) - (∑ g, r (ix3 b q g)) * (1 / 128)))
      * (1 / 127), mul_nonneg (Finset.sum_nonneg fun f _ => mul_self_nonneg _) (by norm_num), ?_⟩
  unfold rowVar
  rw [select_apply, scalarToCol_apply, cmpf_apply, dof_eq]
  show Scalar.select (Ideal.cmp .ogt ((127 : ℝ) : EReal) (Ideal.ofBits .f32 0x00000000#32)) _ _ = _
  rw [Ideal.ofBits_zero_f32, guard, select_one]
  refine colDiv _ _ b q u _ 127 (by norm_num) ?_ dof_eq
  refine rowSum_coe _ b q _ fun f => ?_
  rw [mulf_apply, rowDev_eq x r hr, ← EReal.coe_mul]

/-- `a = 1 / (var + ε)` is a positive real. -/
theorem invVar_real (b : Fin 8) (q : Fin 2048) (u : Fin 1) : ∃ a : ℝ, 0 < a ∧ invVar x (ix3 b q u) = (a : EReal) := by
  obtain ⟨v, hv, hvar⟩ := rowVar_real x r hr b q u
  obtain ⟨e, he, heps⟩ := ceps
  refine ⟨1 * (1 / (v + e)), by positivity, ?_⟩
  unfold invVar
  show Ideal.div (broadcastInDim SC ![] bc_0_C (constant (F := Ideal) S0 .f32 0x3F800000#32) (ix3 b q u))
      (addf (rowVar x) (broadcastInDim SC ![] bc_0_C (constant (F := Ideal) S0 .f32 0x358637BD#32)) (ix3 b q u)) = _
  rw [addf_apply, scalarToCol_apply, scalarToCol_apply, hvar]
  show Ideal.div (Ideal.ofBits .f32 0x3F800000#32) ((v : EReal) + Ideal.ofBits .f32 0x358637BD#32) = _
  rw [c1, heps, ← EReal.coe_add, Ideal.div_coe (by positivity), ← EReal.coe_mul]

/-- THE FACTOR IS REAL: `a` over the maximum of all the `a`s. -/
theorem stab_real (b : Fin 8) (q : Fin 2048) (u : Fin 1) : ∃ s : ℝ, stab x (ix3 b q u) = (s : EReal) := by
  obtain ⟨a, ha, hinv⟩ := invVar_real x r hr b q u
  unfold stab
  rw [hostDivf_apply, scalarToCol_apply, hinv, Host.reduce_eq_fold]
  -- the maximum over all rows is at least this row's `a`
  have hle : (a : EReal) ≤ (Finset.univ.filter fun i => red_C.drop i = ix0).fold FloatOps.maximumf
      (constant (F := Ideal) S0 .f32 0xFF800000#32 (Shape.Idx.first h0)) (invVar x) := by
    show (a : EReal) ≤ (Finset.univ.filter fun i => red_C.drop i = ix0).fold max _ (invVar x)
    refine (Finset.le_fold_max _).2 (Or.inr ⟨ix3 b q u, ?_, hinv.ge⟩)
    exact Finset.mem_filter.2 ⟨Finset.mem_univ _, funext fun z => z.elim0⟩
  generalize (Finset.univ.filter fun i => red_C.drop i = ix0).fold FloatOps.maximumf
      (constant (F := Ideal) S0 .f32 0xFF800000#32 (Shape.Idx.first h0)) (invVar x) = M at hle
  have hpos : (0 : EReal) < M := lt_of_lt_of_le (EReal.coe_pos.2 ha) hle
  induction M using EReal.rec with
  | bot => exact absurd hpos (not_lt.2 bot_le)
  | top => exact ⟨0, by simp [Ideal.div]⟩
  | coe m =>
    have hm : m ≠ 0 := fun h => by rw [h] at hpos; exact lt_irrefl _ hpos
    exact ⟨a * (1 / m), by rw [Ideal.div_coe hm, ← EReal.coe_mul]⟩

end Chain

end Cert.Attn.StabReal

end
-- ==== Proof.Blocks.lean ====
/-
  From the blocks the kernel writes to its whole result array.

  The grid has 8 × 2 points; point `(b, h)` holds batch `b`'s rows `1024 h … 1024 h + 1023`: the factor and noise
  windows move with the output window, the feature window holds the whole batch.  What the body stores at row `r`,
  feature `f` of its block is the kernel's arrangement of that row's scaled noise and feature column
  (`PayAt.pay_apply`); read through the windows these are row `1024 h + r` of batch `b` of the arrays, where the
  reference's arrangement (`RefAt.attend_apply`) is the same number by the law (`Law.rform_eq_kform`), the scaled
  noise being real.  The output blocks tile the array, so after the run the array IS the reference's function of the
  argument arrays.  The factor array the region finds is the shared chain `stab` of the features, which is real
  when the features are.
-/
import proofs.«178636_j39771397161405_2_alg».proof.Proof.Gen.KernelIdeal.Value
import proofs.«178636_j39771397161405_2_alg».proof.Proof.Terms
import proofs.«178636_j39771397161405_2_alg».proof.Proof.LibSoftmaxLaw
import proofs.«178636_j39771397161405_2_alg».proof.Proof.RefAt
import proofs.«178636_j39771397161405_2_alg».proof.Proof.KernelAt
import proofs.«178636_j39771397161405_2_alg».proof.Proof.StabReal
import Idealize.ShloMosaic.Lib.Pipeline.Value
import Idealize.ShloMosaic.Lib.StableHlo.Run
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-! ## The factor array the region finds -/

attribute [local irreducible] Host.reduce Host.reduceAdd in
set_option maxHeartbeats 1600000 in
/-- The host operations before the region leave in the factor buffer the shared chain of the feature array. -/
theorem V_stab (c : Dev nD) :
    (V m c main_v7 : S8x2048x1.Idx → EReal) = Cert.Attn.stab (F := Ideal) (m ((c : Thread nD τ).loc main_arg0)) := by
  dsimp only [Gen.V]
  simp only [Gen.hostOps0, Gen.hostOps0_1, Gen.hostOps0_2, List.flatten_cons, List.flatten_nil, List.append_nil,
    List.cons_append, List.nil_append]
  after_results_simp
  rfl

/-! ## The index maps, decided over the grid -/

/-- The factor and noise windows move with the output window, the feature window follows its batch only, and the
    output's block indices stay in range. -/
theorem idx_facts3 : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 3) = win0_3.index t (0 : Fin 3) ∧ win0_2.index t (1 : Fin 3) = 0
    ∧ win0_2.index t (2 : Fin 3) = 0
    ∧ win0_3.index t (2 : Fin 3) = 0 ∧ win0_3.index t (0 : Fin 3) ≤ 7 ∧ win0_3.index t (1 : Fin 3) ≤ 1 :=
  (by decide +kernel : ∀ t : Fin grid0.N, _)

/-- Every (batch, half) is some point's output block. -/
theorem idx_onto3 : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

/-! ## What a point writes back -/

/-- WHAT POINT `t` WRITES BACK is block `t` of the reference's function of the arrays as the region finds them, when
    the factors and the noise are real. -/
theorem wrote_eq (c : Dev nD) (t : Fin cfg0.N)
    (hst : ∀ i, ∃ s : ℝ, (V m c main_v7 : S8x2048x1.Idx → EReal) i = (s : EReal))
    (hn : ∀ i, ∃ s : ℝ, (V m c main_arg1 : S8x2048x2048.Idx → EReal) i = (s : EReal)) :
    (dats m 0 c).flushed 3 t = ((cfg0.win 3).blk t).view.read (Elt Ideal)
      (Cert.Attn.attend (F := Ideal) (V m c main_v7) (V m c main_arg0) (V m c main_arg1)) := by
  rw [Cert.KernelIdeal.Value.flushed3]
  unfold out0_3
  rw [View.canon_unit_zero hz3]
  simp only [View.ld_unit_zero (S := S1x1024x1) hz3, View.ld_unit_zero (S := S1x1024x2048) hz3,
    View.ld_unit_zero (S := S1x2048x128) hz3]
  obtain ⟨e00, e01, e02, e10, e11, e12, e20, e21, e22, e32, b0, b1⟩ := idx_facts3 t
  funext j
  obtain ⟨u, r, f, rfl⟩ : ∃ (u : Fin 1) (r : Fin 1024) (f : Fin 128), j = ix3 u r f := ⟨j 0, j 1, j 2, eq_ix3 j⟩
  have hu : u.val = 0 := by omega
  have hr : r.val < 1024 := r.isLt
  have hf : f.val < 128 := f.isLt
  show k0_pay1 (F := Ideal) (iblk m c 0 t) (iblk m c 1 t) (iblk m c 2 t) (ix3 u r f)
    = Cert.Attn.attend (F := Ideal) (V m c main_v7) (V m c main_arg0) (V m c main_arg1)
        (((cfg0.win 3).blk t).view.emb (ix3 u r f))
  refine (Cert.KernelIdeal.PayAt.pay_apply (iblk m c 0 t) (iblk m c 1 t) (iblk m c 2 t) u r f).trans ?_
  -- the array index of the block's entry
  have hemb : ((cfg0.win 3).blk t).view.emb (ix3 u r f)
      = ix3 (⟨win0_3.index t (0 : Fin 3), by omega⟩ : Fin 8) (⟨win0_3.index t (1 : Fin 3) * 1024 + r.val, by omega⟩ : Fin 2048) f :=
    funext fun a => Fin.ext (by
      match a with
      | ⟨0, _⟩ => show win0_3.index t (0 : Fin 3) * 1 + 1 * u.val = win0_3.index t (0 : Fin 3); omega
      | ⟨1, _⟩ => show win0_3.index t (1 : Fin 3) * 1024 + 1 * r.val = win0_3.index t (1 : Fin 3) * 1024 + r.val; omega
      | ⟨2, _⟩ => show win0_3.index t (2 : Fin 3) * 128 + 1 * f.val = f.val; omega)
  rw [hemb, Cert.Attn.RefAt.attend_apply]
  -- the three input blocks read where the output's rectangle says
  have h1 : ∀ k : Fin 2048, iblk m c 1 t (ix3 (0 : Fin 1) r k)
      = (V m c main_arg1 : S8x2048x2048.Idx → EReal)
          (ix3 (⟨win0_3.index t (0 : Fin 3), by omega⟩ : Fin 8) (⟨win0_3.index t (1 : Fin 3) * 1024 + r.val, by omega⟩ : Fin 2048) k) := fun k => by
    have hk : k.val < 2048 := k.isLt
    show V m c main_arg1 (((cfg0.win 1).blk t).view.emb (ix3 (0 : Fin 1) r k)) = _
    refine congrArg _ (funext fun a => Fin.ext ?_)
    match a with
    | ⟨0, _⟩ => show win0_1.index t (0 : Fin 3) * 1 + 1 * 0 = win0_3.index t (0 : Fin 3); omega
    | ⟨1, _⟩ => show win0_1.index t (1 : Fin 3) * 1024 + 1 * r.val = win0_3.index t (1 : Fin 3) * 1024 + r.val; omega
    | ⟨2, _⟩ => show win0_1.index t (2 : Fin 3) * 2048 + 1 * k.val = k.val; omega
  have h0 : iblk m c 0 t (ix3 (0 : Fin 1) r (0 : Fin 1))
      = (V m c main_v7 : S8x2048x1.Idx → EReal)
          (ix3 (⟨win0_3.index t (0 : Fin 3), by omega⟩ : Fin 8) (⟨win0_3.index t (1 : Fin 3) * 1024 + r.val, by omega⟩ : Fin 2048) (0 : Fin 1)) := by
    show V m c main_v7 (((cfg0.win 0).blk t).view.emb (ix3 (0 : Fin 1) r (0 : Fin 1))) = _
    refine congrArg _ (funext fun a => Fin.ext ?_)
    match a with
    | ⟨0, _⟩ => show win0_0.index t (0 : Fin 3) * 1 + 1 * 0 = win0_3.index t (0 : Fin 3); omega
    | ⟨1, _⟩ => show win0_0.index t (1 : Fin 3) * 1024 + 1 * r.val = win0_3.index t (1 : Fin 3) * 1024 + r.val; omega
    | ⟨2, _⟩ => show win0_0.index t (2 : Fin 3) * 1 + 1 * 0 = 0; omega
  have h2 : ∀ k : Fin 2048, iblk m c 2 t (ix3 (0 : Fin 1) k f)
      = (V m c main_arg0 : S8x2048x128.Idx → EReal) (ix3 (⟨win0_3.index t (0 : Fin 3), by omega⟩ : Fin 8) k f) := fun k => by
    have hk : k.val < 2048 := k.isLt
    show V m c main_arg0 (((cfg0.win 2).blk t).view.emb (ix3 (0 : Fin 1) k f)) = _
    refine congrArg _ (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * k.val = k.val; omega
    | ⟨2, _⟩ => show win0_2.index t (2 : Fin 3) * 128 + 1 * f.val = f.val; omega
  simp only [h0, h1, h2]
  refine (Cert.Attn.Law.rform_eq_kform (by norm_num) _ _ fun k => ?_).symm
  obtain ⟨a, ha⟩ := hn (ix3 (⟨win0_3.index t (0 : Fin 3), by omega⟩ : Fin 8) (⟨win0_3.index t (1 : Fin 3) * 1024 + r.val, by omega⟩ : Fin 2048) k)
  obtain ⟨s, hs⟩ := hst (ix3 (⟨win0_3.index t (0 : Fin 3), by omega⟩ : Fin 8) (⟨win0_3.index t (1 : Fin 3) * 1024 + r.val, by omega⟩ : Fin 2048) (0 : Fin 1))
  exact ⟨a * s, by rw [ha, hs, EReal.coe_mul]⟩

/-! ## The blocks tile the array -/

/-- An index of the array is in point `t`'s block iff each coordinate is in the block's range on its axis. -/
theorem mem_blk3 (t : Fin cfg0.N) (i : S8x2048x128.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v8).slice (win0_3.rect t)).set ↔ _
  rw [View.set_slice_whole, Rect.mem_set_unit]
  exact Iff.rfl

/-- Every index of the result array is in some writing point's block: batch `i 0`, half `i 1 / 1024`. -/
theorem cover3 (i : S8x2048x128.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 128 := (i 2).isLt
  obtain ⟨t, ht⟩ := idx_onto3 ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, (mem_blk3 t i).2 fun a => ?_⟩
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-! ## The array after the run, and the run -/

/-- THE RESULT ARRAY after the run is the reference's function of the two argument arrays, when both are real. -/
theorem final3 (c : Dev nD)
    (hx : ∀ i, ∃ s : ℝ, (m ((c : Thread nD τ).loc main_arg0) : S8x2048x128.Idx → EReal) i = (s : EReal))
    (hn : ∀ i, ∃ s : ℝ, (m ((c : Thread nD τ).loc main_arg1) : S8x2048x2048.Idx → EReal) i = (s : EReal)) :
    (dats m 0 c).arrAt 3 cfg0.N
      = Cert.Attn.refOut (F := Ideal) (m ((c : Thread nD τ).loc main_arg0)) (m ((c : Thread nD τ).loc main_arg1)) := by
  have hst : ∀ i, ∃ s : ℝ, (V m c main_v7 : S8x2048x1.Idx → EReal) i = (s : EReal) := fun i => by
    rw [V_stab m c, eq_ix3 i]
    choose r hr using hx
    exact Cert.Attn.StabReal.stab_real _ r hr _ _ _
  have hn' : ∀ i, ∃ s : ℝ, (V m c main_arg1 : S8x2048x2048.Idx → EReal) i = (s : EReal) := fun i => by
    rw [V_main_arg1 m c]; exact hn i
  refine ((dats m 0 c).arrAt_eq_of_cover 3 _ (fun t _ => wrote_eq m c t hst hn') cover3).trans ?_
  rw [V_stab m c, V_main_arg0 m c, V_main_arg1 m c]
  rfl

/-- The kernel's run with its result array named: the reference's function of the argument arrays. -/
theorem run
    (hx : ∀ (c : Dev nD) i, ∃ s : ℝ, (m ((c : Thread nD τ).loc main_arg0) : S8x2048x128.Idx → EReal) i = (s : EReal))
    (hn : ∀ (c : Dev nD) i, ∃ s : ℝ, (m ((c : Thread nD τ).loc main_arg1) : S8x2048x2048.Idx → EReal) i = (s : EReal)) :
    θ_run defs (onTc (τ := τ) (main (F := Ideal))) ⟨m, fun _ => 0, ρ⟩ fun r => ∀ c : Dev nD,
      r.2.mem ((c : Thread nD τ).loc main_v8)
          = Cert.Attn.refOut (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final3 m c (hx c) (hn c)), (h c).2⟩)
    (Cert.KernelIdeal.Value.run_blocks m ρ)

end Cert.KernelIdeal.Blocks

end
-- ==== Proof.PreReal.lean ====
/-
  From the precondition to real inputs.

  The precondition is the conjunction of two `all`-reductions, one per input, of the elementwise test `|v| < +∞`.
  If it is all ones, each reduction is one, so the test holds at every index of each input; and an extended real
  whose absolute value is below `+∞` is neither infinity, that is, a real number.
-/
import proofs.«178636_j39771397161405_2_alg».proof.Pre_finite_inputs
import proofs.«178636_j39771397161405_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Attn.PreReal

open Idealize.ShloMosaic Idealize.ShloMosaic.ValueIdx

instance : Subsingleton Cert.Pre_finite_inputs.S_.Idx := ⟨fun a b => funext fun d => d.elim0⟩

/-- An extended real whose absolute value compares below `+∞` is a real number. -/
theorem real_of_abs_lt (a : EReal)
    (h : FloatOps.cmpf (F := Ideal) (φ := .f32) .olt (FloatOps.hostAbsf a) (Ideal.ofBits .f32 0x7F800000#32) = 1#1) :
    ∃ r : ℝ, a = (r : EReal) := by
  have ht : Ideal.ofBits .f32 0x7F800000#32 = ⊤ := by simp [Ideal.ofBits, Ideal.ieee]
  change Ideal.cmp .olt (max a (-a)) (Ideal.ofBits .f32 0x7F800000#32) = 1#1 at h
  rw [ht] at h
  induction a using EReal.rec with
  | bot => simp [Ideal.cmp] at h
  | top => simp [Ideal.cmp] at h
  | coe r => exact ⟨r, rfl⟩

/-- Under the precondition every entry of both inputs is a real number. -/
theorem inputs_real (x : FVec Ideal Cert.Pre_finite_inputs.S8x2048x128 .f32)
    (n : FVec Ideal Cert.Pre_finite_inputs.S8x2048x2048 .f32)
    (h : Cert.Pre_finite_inputs.fn (F := Ideal) x n = fun _ => 1#1) :
    (∀ i, ∃ r : ℝ, x i = (r : EReal)) ∧ (∀ i, ∃ r : ℝ, n i = (r : EReal)) := by
  have h0 := congrFun h ix0
  dsimp only [Cert.Pre_finite_inputs.fn] at h0
  obtain ⟨hx, hn⟩ := IntOp.andi_eq_one.1 h0
  exact ⟨fun i => real_of_abs_lt _ (Host.reduce_andi_all _ _ _ _ _ hx i),
    fun i => real_of_abs_lt _ (Host.reduce_andi_all _ _ _ _ _ hn i)⟩

end Cert.Attn.PreReal

end
-- ==== Proof.lean ====
/-
  A row-softmax attention with a data-dependent per-row scale, in two arrangements.

  Both programs first compute, from the features alone, a factor per (batch, row): the reciprocal of the row's
  unbiased feature variance plus `ε`, divided by the largest such reciprocal over all rows.  Each then scales the
  row of noise by its factor, exponentiates the differences to the row maximum, and contracts with the batch's
  features.  The reference normalises the exponentials by their row sum BEFORE the contraction
  (`∑ₖ (pₖ / L) · xₖ`), the kernel divides the contracted row AFTER it (`(∑ₖ pₖ · xₖ) / L`), one batch and 1024
  rows per grid point.

  On the extended reals the two agree exactly when `L` is a positive real: then dividing by `L` is multiplying by the
  nonnegative real `1 / L`, which distributes over the sum (Proof/LibSoftmaxLaw.lean).  `L` is a positive real because the scaled
  noise is real — the noise by the precondition (Proof/PreReal.lean), the factor because a variance of reals is a
  nonnegative real, so `1 / (var + ε)` is a positive real and the maximum it is divided by is not zero
  (Proof/StabReal.lean) — so the row maximum is attained and some exponential is `1`.  Without finiteness the claim
  would fail at `0 / 0`, which is why the precondition is used.

  The kernel's result array is read off its run block by block (Proof/KernelAt.lean: what the body stores;
  Proof/Blocks.lean: the blocks tile the array and each is the reference's function there), the reference's off its
  straight-line run (Proof/RefRun.lean, Proof/RefAt.lean); both are `Cert.Attn.refOut` of the argument arrays
  (Proof/Terms.lean).  The idealization rewrote nothing, so `preserves` is `True`.
-/
import proofs.«178636_j39771397161405_2_alg».proof.Defs
import proofs.«178636_j39771397161405_2_alg».proof.Proof.Gen.Kernel
import proofs.«178636_j39771397161405_2_alg».proof.Proof.Gen.Kernel.Skeleton
import proofs.«178636_j39771397161405_2_alg».proof.Proof.Gen.Kernel.Launch
import proofs.«178636_j39771397161405_2_alg».proof.Proof.Gen.Kernel.Points
import proofs.«178636_j39771397161405_2_alg».proof.Proof.Gen.Kernel.Frame
import proofs.«178636_j39771397161405_2_alg».proof.Proof.Gen.KernelIdeal
import proofs.«178636_j39771397161405_2_alg».proof.Proof.Gen.KernelIdeal.Skeleton
import proofs.«178636_j39771397161405_2_alg».proof.Proof.Gen.KernelIdeal.Launch
import proofs.«178636_j39771397161405_2_alg».proof.Proof.Gen.KernelIdeal.Points
import proofs.«178636_j39771397161405_2_alg».proof.Proof.Gen.KernelIdeal.Frame
import proofs.«178636_j39771397161405_2_alg».proof.Proof.Gen.KernelIdeal.Value
import proofs.«178636_j39771397161405_2_alg».proof.Proof.Gen.ReferenceIdeal
import proofs.«178636_j39771397161405_2_alg».proof.Proof.Gen.Pre_finite_inputs
import proofs.«178636_j39771397161405_2_alg».proof.Proof.RefRun
import proofs.«178636_j39771397161405_2_alg».proof.Proof.Blocks
import proofs.«178636_j39771397161405_2_alg».proof.Proof.PreReal
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and never writes its arguments: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments, and finite arguments, both programs end with the same result array:
    the reference's function of the kernel's argument arrays. -/
theorem algebraic : Cert.algebraic_KernelIdeal_ReferenceIdeal := by
  intro m ρ m' ρ' hpre hagree
  have hreal := fun c => Cert.Attn.PreReal.inputs_real _ _ (hpre c)
  refine ⟨fun c => Cert.Attn.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run m ρ (fun c => (hreal c).1) (fun c => (hreal c).2), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
